-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 61
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S50000x128, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .bf16⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000, .f32⟩
  | .hbm, ⟨80, _⟩ => ⟨S50000x1, .f32⟩
  | .hbm, ⟨81, _⟩ => ⟨S50000x1, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Named.lean ====
/-
  The idealized kernel's run with its RESULT ARRAY named.

  @main is four segments: host operations, the first layer's pallas_call, host operations, the second
  layer's pallas_call.  The frame module proves that every weakly fair execution terminates without a fault
  and that the nine argument arrays end as launched; its last step reads only the argument arrays off the final
  thread state.  Here the same launch is read once more and the result array main_v41 is kept as well: it ends
  holding what the second pipeline's write-backs leave in it, `(dat1 (V3 m ρ) c).arrAt 5 cfg1.N`, where
  `V3` is the buffer contents when the second region is entered.  What that array is as a function of the
  argument arrays is the business of the modules that follow.
-/
import proofs.«138954_j12077448036841_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at what the second
    pipeline's write-backs leave in it, and the argument arrays end as launched. -/
theorem run_named : θ_run defs (onTc (τ := τ) (main (F := F))) ⟨m, fun _ => 0, ρ⟩ (fun r => ∀ c : Dev nD,
      r.2.mem ((c.tc : Thread nD τ).loc main_v41) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v41 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.Spec.lean ====
/-
  The mathematics of one SAGE layer on the extended reals, row by row.

  A layer maps a node's feature row `a` and its aggregated-neighbour row `an` (128 entries each) to
      max (a · W_self + an · W_neigh + b, 0),
  entry j being  max ((∑ k, a k * W_self[k, j]) + (∑ k, an k * W_neigh[k, j]) + b j) 0  (`rowLin`).
  The last layer's rows are then divided by the larger of their Euclidean norm and a literal epsilon
  (`rowNrm`: torch's F.normalize).  An output row depends on the same row of the two inputs only, so the
  whole-array functions (`linW`, `nrmW`) are these row functions applied at every row, and a row tile of a
  pallas_call computes exactly the rows it holds.  No law of the extended reals is needed between the two
  programs beyond reading both as these sums: the zero literal and the epsilon literal are the same words on
  both sides and are never evaluated.
-/
import Idealize.ShloMosaic.PureOps.Ideal
import Idealize.ShloMosaic.Lib.ValueIdx

noncomputable section

namespace Cert.Sage

open Idealize.ShloMosaic Idealize.ShloMosaic.ValueIdx

/-- A [50000, 128] array of node features. -/
abbrev Arr := (⟨2, ![50000, 128]⟩ : Shape).Idx → EReal
/-- A [128, 128] weight matrix. -/
abbrev Wt := (⟨2, ![128, 128]⟩ : Shape).Idx → EReal

/-- Entry j of a layer's output row: relu of the two row-by-matrix products plus the bias. -/
def rowLin (a an : Fin 128 → EReal) (ws wn : Wt) (b : Fin 128 → EReal) (j : Fin 128) : EReal :=
  max ((∑ k : Fin 128, a k * ws (ix2 k j)) + (∑ k : Fin 128, an k * wn (ix2 k j)) + b j) (Ideal.ofBits .f32 0x00000000#32)

/-- Entry j of a row divided by max (‖row‖₂, ε), ε the f32 literal 0x2B8CBCCC. -/
def rowNrm (y : Fin 128 → EReal) (j : Fin 128) : EReal :=
  Ideal.div (y j) (max (Ideal.sqrt (∑ k : Fin 128, y k * y k)) (Ideal.ofBits .f32 0x2B8CBCCC#32))

/-- Row r of an array. -/
def row (h : Arr) (r : Fin 50000) : Fin 128 → EReal := fun k => h (ix2 r k)

/-- A whole layer: every row through `rowLin`. -/
def linW (h hn : Arr) (ws wn : Wt) (b : Fin 128 → EReal) : Arr :=
  fun i => rowLin (row h (i 0)) (row hn (i 0)) ws wn b (i 1)

/-- The row normalisation of a whole array. -/
def nrmW (y : Arr) : Arr := fun i => rowNrm (row y (i 0)) (i 1)

theorem linW_ix2 (h hn : Arr) (ws wn : Wt) (b : Fin 128 → EReal) (r : Fin 50000) (j : Fin 128) :
    linW h hn ws wn b (ix2 r j) = rowLin (row h r) (row hn r) ws wn b j := rfl

theorem nrmW_ix2 (y : Arr) (r : Fin 50000) (j : Fin 128) : nrmW y (ix2 r j) = rowNrm (row y r) j := rfl

end Cert.Sage

end
-- ==== Proof.Pay.lean ====
/-
  The two kernel bodies' stored values read at an index of the [5000, 128] row tile.

  Both bodies load a tile of node rows, a tile of aggregated-neighbour rows, two [128, 128] weight matrices and
  a [1, 128] bias, and store one tile.  At the extended reals a change of float format is the identity, a
  `tpu.matmul` into the zero accumulator is the plain sum over the contracted axis of products, a lane
  reduction is the sum over the 128 lanes, and the column broadcasts only re-read a row's one value.  So entry
  (p, q) of the first body's tile is `rowLin` of row p of the two loaded tiles (`pay0_row`), and the second
  body's is that row normalised (`pay1_row`).
-/
import proofs.«138954_j12077448036841_2_alg».proof.Proof.Gen.KernelIdeal.Skeleton
import proofs.«138954_j12077448036841_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx
open Cert.Sage

/-! ## The matrix product of a row tile with a weight matrix, at an index -/

theorem mmL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mmL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mmR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mmR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mmL0 _ _
    | ⟨1, _⟩ => exact (mmL1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mmR0 _ _).trans hk
    | ⟨1, _⟩ => exact mmR1 _ _)
  rw [el, er]

/-! ## Layout operations and the lane sum, at an index -/

/-- A column [a, 1] broadcast along the lanes to [a, b] reads, at (p, c), the column at p. -/
theorem colBroadcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (p, 0), the vector at p. -/
theorem colCast_apply {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The lane sum of a [5000, 128] block at row p is the sum over the 128 lanes of that row. -/
theorem rowSum_apply (src : FVec Ideal S5000x128 .f32) (hφ : FKind.Formats .f32) (hacc : (0x00000000#32 : BitVec 32) = 0x00000000#32) (p : Fin 5000) :
    multiReduction .add [1] S5000 src 0x00000000#32 reduces_S5000x128_S5000 hφ hacc (ix1 p) = ∑ k : Fin 128, src (ix2 p k) := by
  refine (Ideal.multiReduction_add_single src 0x00000000#32 reduces_S5000x128_S5000 hφ hacc (ix1 p)).trans ?_
  exact Finset.sum_congr rfl fun k _ => congrArg src (funext fun a => Fin.ext (by match a with | ⟨0, _⟩ => rfl | ⟨1, _⟩ => rfl))

theorem pay0_apply (x0 x1 : Vec Ideal S5000x128 .f32) (x2 x3 : Vec Ideal S128x128 .f32) (x4 : Vec Ideal S1x128 .f32) (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) (Ideal.ofBits .f32 0x00000000#32) := by
  unfold k0_pay1
  rw [shapeCast_self, shapeCast_self]
  refine congrArg₂ max (congrArg₂ (· + ·) (congrArg₂ (· + ·) ?_ ?_) ?_) rfl
  · exact mm_apply _ _ p q
  · exact mm_apply _ _ p q
  · exact broadcastTo_1b_ab_apply x4 _ p q

/-- The second layer's last step on a block: each row divided by the larger of its Euclidean norm and the literal epsilon. -/
def nrmBlock (Y : FVec Ideal S5000x128 .f32) : FVec Ideal S5000x128 .f32 :=
  divf Y (broadcastTo S5000x128 (maximumf (sqrt (shapeCast S5000x1 (multiReduction .add [1] S5000 (mulf Y Y) 0x00000000#32 reduces_S5000x128_S5000 (.inl rfl) rfl) shapeCasts_S5000_S5000x1)) (broadcast S5000x1 (Scalar.ofBits (F := Ideal) .f32 0x2B8CBCCC#32))) broadcasts_S5000x1_S5000x128)

theorem nrmBlock_apply (Y : FVec Ideal S5000x128 .f32) (p : Fin 5000) (q : Fin 128) :
    nrmBlock Y (ix2 p q)
      = Ideal.div (Y (ix2 p q)) (max (Ideal.sqrt (∑ k : Fin 128, Y (ix2 p k) * Y (ix2 p k))) (Ideal.ofBits .f32 0x2B8CBCCC#32)) := by
  unfold nrmBlock
  refine congrArg (Ideal.div (Y (ix2 p q))) ?_
  refine (colBroadcast_apply _ _ p q).trans ?_
  refine congrArg₂ max (congrArg Ideal.sqrt ?_) rfl
  refine (colCast_apply _ _ p).trans ?_
  exact rowSum_apply (mulf Y Y) _ _ p

/-- The second kernel's stored value is the first kernel's, normalised row by row. -/
theorem pay1_eq (x0 x1 : Vec Ideal S5000x128 .f32) (x2 x3 : Vec Ideal S128x128 .f32) (x4 : Vec Ideal S1x128 .f32) :
    k1_pay1 (F := Ideal) x0 x1 x2 x3 x4 = nrmBlock (k0_pay1 (F := Ideal) x0 x1 x2 x3 x4) := by
  unfold k1_pay1 k0_pay1 nrmBlock
  rw [shapeCast_self x0]

/-! ## The two stored values, row by row -/

/-- Entry (p, q) of the first body's tile is the layer's row function of row p of the loaded tiles. -/
theorem pay0_row (x0 x1 : Vec Ideal S5000x128 .f32) (x2 x3 : Vec Ideal S128x128 .f32) (x4 : Vec Ideal S1x128 .f32) (p : Fin 5000) (q : Fin 128) :
    k0_pay1 (F := Ideal) x0 x1 x2 x3 x4 (ix2 p q)
      = rowLin (fun k => x0 (ix2 p k)) (fun k => x1 (ix2 p k)) x2 x3 (fun j => x4 (ix2 (0 : Fin 1) j)) q :=
  pay0_apply x0 x1 x2 x3 x4 p q

/-- Entry (p, q) of the second body's tile is that row, normalised. -/
theorem pay1_row (x0 x1 : Vec Ideal S5000x128 .f32) (x2 x3 : Vec Ideal S128x128 .f32) (x4 : Vec Ideal S1x128 .f32) (p : Fin 5000) (q : Fin 128) :
    k1_pay1 (F := Ideal) x0 x1 x2 x3 x4 (ix2 p q)
      = rowNrm (rowLin (fun k => x0 (ix2 p k)) (fun k => x1 (ix2 p k)) x2 x3 (fun j => x4 (ix2 (0 : Fin 1) j))) q := by
  rw [pay1_eq]
  refine (nrmBlock_apply _ p q).trans ?_
  unfold rowNrm
  simp only [pay0_row]

end Cert.KernelIdeal.Pay

end
-- ==== Proof.Layer0.lean ====
/-
  The first layer's pallas_call as one whole-array function.

  The region runs over ten grid points; point t fetches rows 5000 t … 5000 t + 4999 of the node features and of
  the aggregated neighbours, the two whole weight matrices and the bias, and writes back rows 5000 t … of the
  result.  Each stored row is the layer's row function of the same row of the two inputs (the body's stored value,
  read at an index), so what a point writes back is its tile of ONE function of the arrays the region finds, and
  the ten tiles cover the result array: it ends at that function.  The arrays the region finds are a parameter
  here; the host operations that produced them are read elsewhere.
-/
import proofs.«138954_j12077448036841_2_alg».proof.Proof.Gen.KernelIdeal.Frame
import proofs.«138954_j12077448036841_2_alg».proof.Proof.Pay
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.ShloMosaic.ValueIdx
open Idealize.SL.Sem
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two row-tiled inputs and the output sit at row tile t,
    the weights and the bias at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := lt_of_lt_of_eq t.isLt N_0

/-! ## The input windows' blocks, read off the arrays -/

/-- Row p of tile t of the node features is row 5000 t + p of the array. -/
theorem read0 (c : Dev nD) (t : Fin cfg0.N) (p : Fin 5000) (k : Fin 128) (r : Fin 50000) (hr : r.val = t.val * 5000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the aggregated-neighbour rows. -/
theorem read1 (c : Dev nD) (t : Fin cfg0.N) (p : Fin 5000) (k : Fin 128) (r : Fin 50000) (hr : r.val = t.val * 5000 + p.val) :
    iblk0 V c 1 t (ix2 p k) = V c main_v20 (ix2 r k) := by
  obtain ⟨-, -, e0, e1, -⟩ := idx_facts t
  show V c main_v20 (((cfg0.win 1).blk t).view.emb (ix2 p k)) = V c main_v20 (ix2 r k)
  refine congrArg (V c main_v20) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weight windows and the bias window hold their whole arrays at every point. -/
theorem read2 (c : Dev nD) (t : Fin cfg0.N) (y : S128x128.Idx) : iblk0 V c 2 t y = V c main_arg3 y := by
  obtain ⟨-, -, -, -, e0, e1, -⟩ := idx_facts t
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem read3 (c : Dev nD) (t : Fin cfg0.N) (y : S128x128.Idx) : iblk0 V c 3 t y = V c main_arg4 y := by
  obtain ⟨-, -, -, -, -, -, e0, e1, -⟩ := idx_facts t
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem read4 (c : Dev nD) (t : Fin cfg0.N) (y : S1x128.Idx) : iblk0 V c 4 t y = V c main_v21 y := by
  obtain ⟨-, -, -, -, -, -, -, -, e0, e1, -⟩ := idx_facts t
  show V c main_v21 (((cfg0.win 4).blk t).view.emb y) = V c main_v21 y
  refine congrArg (V c main_v21) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## What a point leaves in the output tile -/

/-- Entry (p, q) of the tile point t stores is the layer's row function of row 5000 t + p of the arrays the region finds. -/
theorem out_at (c : Dev nD) (t : Fin cfg0.N) (p : Fin 5000) (q : Fin 128) (r : Fin 50000) (hr : r.val = t.val * 5000 + p.val) :
    out0_5 (iblk0 V c 0 t) (iblk0 V c 1 t) (iblk0 V c 2 t) (iblk0 V c 3 t) (iblk0 V c 4 t) (ix2 p q)
      = (rowLin (row (V c main_arg0) r) (row (V c main_v20) r) (V c main_arg3) (V c main_arg4) (fun j => V c main_v21 (ix2 (0 : Fin 1) j))) q := by
  unfold out0_5
  rw [View.canon_unit_zero hz]
  simp only [View.ld_unit_zero (S := S5000x128) hz, View.ld_unit_zero (S := S128x128) hz, View.ld_unit_zero (S := S1x128) hz]
  refine (Pay.pay0_row (iblk0 V c 0 t) (iblk0 V c 1 t) (iblk0 V c 2 t) (iblk0 V c 3 t) (iblk0 V c 4 t) p q).trans ?_
  have h0 : (fun k => iblk0 V c 0 t (ix2 p k)) = row (V c main_arg0) r := funext fun k => read0 V c t p k r hr
  have h1 : (fun k => iblk0 V c 1 t (ix2 p k)) = row (V c main_v20) r := funext fun k => read1 V c t p k r hr
  have h2 : iblk0 V c 2 t = V c main_arg3 := funext fun y => read2 V c t y
  have h3 : iblk0 V c 3 t = V c main_arg4 := funext fun y => read3 V c t y
  have h4 : (fun j => iblk0 V c 4 t (ix2 (0 : Fin 1) j)) = fun j => V c main_v21 (ix2 (0 : Fin 1) j) := funext fun j => read4 V c t _
  rw [h0, h1, h2, h3, h4]

/-- The whole-array function the output window's array ends at. -/
def G (c : Dev nD) : Arr :=
  (linW (V c main_arg0) (V c main_v20) (V c main_arg3) (V c main_arg4) (fun j => V c main_v21 (ix2 (0 : Fin 1) j)))

/-- What point t writes back is tile t of that function. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have ht := t_lt t
  have hr : t.val * 5000 + p.val < 50000 := by have := p.isLt; omega
  have hemb : ((cfg0.win 5).blk t).view.emb (ix2 p q) = ix2 (⟨t.val * 5000 + p.val, hr⟩ : Fin 50000) q :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  show out0_5 (iblk0 V c 0 t) (iblk0 V c 1 t) (iblk0 V c 2 t) (iblk0 V c 3 t) (iblk0 V c 4 t) (ix2 p q)
    = G V c (((cfg0.win 5).blk t).view.emb (ix2 p q))
  rw [hemb]
  exact out_at V c t p q ⟨_, hr⟩ rfl

/-! ## The ten tiles cover the array -/

theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Row r lies in tile r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE ARRAY after the region: the layer's function of the arrays the region was entered with. -/
theorem value (c : Dev nD) : (dat0 V c).arrAt 5 cfg0.N = G V c :=
  (dat0 V c).arrAt_eq_of_cover 5 (G V c) (fun t _ => flushed_eq V c t) (cover)

end Cert.KernelIdeal.Layer0

end
-- ==== Proof.Layer1.lean ====
/-
  The second layer's pallas_call as one whole-array function.

  As for the first layer: ten row tiles, each stored row the layer's row function of the same row of the two
  inputs — here followed by the division of the row by max (its Euclidean norm, ε), which again reads that row
  only.  So the result array ends at the row-normalised layer function of the arrays the region finds, which are a
  parameter here.
-/
import proofs.«138954_j12077448036841_2_alg».proof.Proof.Gen.KernelIdeal.Frame
import proofs.«138954_j12077448036841_2_alg».proof.Proof.Pay
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL.Sem
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two row-tiled inputs and the output sit at row tile t,
    the weights and the bias at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt N_1

/-! ## The input windows' blocks, read off the arrays -/

/-- Row p of tile t of the node features is row 5000 t + p of the array. -/
theorem read0 (c : Dev nD) (t : Fin cfg1.N) (p : Fin 5000) (k : Fin 128) (r : Fin 50000) (hr : r.val = t.val * 5000 + p.val) :
    iblk1 V c 0 t (ix2 p k) = V c main_v22 (ix2 r k) := by
  obtain ⟨e0, e1, -⟩ := idx_facts t
  show V c main_v22 (((cfg1.win 0).blk t).view.emb (ix2 p k)) = V c main_v22 (ix2 r k)
  refine congrArg (V c main_v22) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the aggregated-neighbour rows. -/
theorem read1 (c : Dev nD) (t : Fin cfg1.N) (p : Fin 5000) (k : Fin 128) (r : Fin 50000) (hr : r.val = t.val * 5000 + p.val) :
    iblk1 V c 1 t (ix2 p k) = V c main_v39 (ix2 r k) := by
  obtain ⟨-, -, e0, e1, -⟩ := idx_facts t
  show V c main_v39 (((cfg1.win 1).blk t).view.emb (ix2 p k)) = V c main_v39 (ix2 r k)
  refine congrArg (V c main_v39) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The weight windows and the bias window hold their whole arrays at every point. -/
theorem read2 (c : Dev nD) (t : Fin cfg1.N) (y : S128x128.Idx) : iblk1 V c 2 t y = V c main_arg6 y := by
  obtain ⟨-, -, -, -, e0, e1, -⟩ := idx_facts t
  show V c main_arg6 (((cfg1.win 2).blk t).view.emb y) = V c main_arg6 y
  refine congrArg (V c main_arg6) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem read3 (c : Dev nD) (t : Fin cfg1.N) (y : S128x128.Idx) : iblk1 V c 3 t y = V c main_arg7 y := by
  obtain ⟨-, -, -, -, -, -, e0, e1, -⟩ := idx_facts t
  show V c main_arg7 (((cfg1.win 3).blk t).view.emb y) = V c main_arg7 y
  refine congrArg (V c main_arg7) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem read4 (c : Dev nD) (t : Fin cfg1.N) (y : S1x128.Idx) : iblk1 V c 4 t y = V c main_v40 y := by
  obtain ⟨-, -, -, -, -, -, -, -, e0, e1, -⟩ := idx_facts t
  show V c main_v40 (((cfg1.win 4).blk t).view.emb y) = V c main_v40 y
  refine congrArg (V c main_v40) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-! ## What a point leaves in the output tile -/

/-- Entry (p, q) of the tile point t stores is the layer's row function of row 5000 t + p of the arrays the region finds. -/
theorem out_at (c : Dev nD) (t : Fin cfg1.N) (p : Fin 5000) (q : Fin 128) (r : Fin 50000) (hr : r.val = t.val * 5000 + p.val) :
    out1_5 (iblk1 V c 0 t) (iblk1 V c 1 t) (iblk1 V c 2 t) (iblk1 V c 3 t) (iblk1 V c 4 t) (ix2 p q)
      = rowNrm (rowLin (row (V c main_v22) r) (row (V c main_v39) r) (V c main_arg6) (V c main_arg7) (fun j => V c main_v40 (ix2 (0 : Fin 1) j))) q := by
  unfold out1_5
  rw [View.canon_unit_zero hz]
  simp only [View.ld_unit_zero (S := S5000x128) hz, View.ld_unit_zero (S := S128x128) hz, View.ld_unit_zero (S := S1x128) hz]
  refine (Pay.pay1_row (iblk1 V c 0 t) (iblk1 V c 1 t) (iblk1 V c 2 t) (iblk1 V c 3 t) (iblk1 V c 4 t) p q).trans ?_
  have h0 : (fun k => iblk1 V c 0 t (ix2 p k)) = row (V c main_v22) r := funext fun k => read0 V c t p k r hr
  have h1 : (fun k => iblk1 V c 1 t (ix2 p k)) = row (V c main_v39) r := funext fun k => read1 V c t p k r hr
  have h2 : iblk1 V c 2 t = V c main_arg6 := funext fun y => read2 V c t y
  have h3 : iblk1 V c 3 t = V c main_arg7 := funext fun y => read3 V c t y
  have h4 : (fun j => iblk1 V c 4 t (ix2 (0 : Fin 1) j)) = fun j => V c main_v40 (ix2 (0 : Fin 1) j) := funext fun j => read4 V c t _
  rw [h0, h1, h2, h3, h4]

/-- The whole-array function the output window's array ends at. -/
def G (c : Dev nD) : Arr :=
  nrmW (linW (V c main_v22) (V c main_v39) (V c main_arg6) (V c main_arg7) (fun j => V c main_v40 (ix2 (0 : Fin 1) j)))

/-- What point t writes back is tile t of that function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have ht := t_lt t
  have hr : t.val * 5000 + p.val < 50000 := by have := p.isLt; omega
  have hemb : ((cfg1.win 5).blk t).view.emb (ix2 p q) = ix2 (⟨t.val * 5000 + p.val, hr⟩ : Fin 50000) q :=
    funext fun a => Fin.ext (by
      match a with
      | ⟨0, _⟩ => show win1_5.index t (0 : Fin 2) * 5000 + 1 * p.val = t.val * 5000 + p.val; omega
      | ⟨1, _⟩ => show win1_5.index t (1 : Fin 2) * 128 + 1 * q.val = q.val; omega)
  show out1_5 (iblk1 V c 0 t) (iblk1 V c 1 t) (iblk1 V c 2 t) (iblk1 V c 3 t) (iblk1 V c 4 t) (ix2 p q)
    = G V c (((cfg1.win 5).blk t).view.emb (ix2 p q))
  rw [hemb]
  exact out_at V c t p q ⟨_, hr⟩ rfl

/-! ## The ten tiles cover the array -/

theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Row r lies in tile r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE ARRAY after the region: the layer's function of the arrays the region was entered with. -/
theorem value (c : Dev nD) : (dat1 V c).arrAt 5 cfg1.N = G V c :=
  (dat1 V c).arrAt_eq_of_cover 5 (G V c) (fun t _ => flushed_eq V c t) (cover)

end Cert.KernelIdeal.Layer1

end
-- ==== Proof.HostSide.lean ====
/-
  The host operations around the two pallas_calls, read back.

  Before each pallas_call @main computes the mean of the incoming neighbours' rows: the source features are
  gathered at the edges' (wrapped) source indices, summed into the destination nodes by a scatter-add, and divided
  by max (in-degree, 1), the in-degree itself a scatter-add of ones.  The kernel's program rounds the features to
  bf16 before the gather and widens the gathered rows again, which at the extended reals changes nothing; it keeps
  these as `aggK` and `degK` — the printed operations composed, never opened.  This module reads what each
  region finds in its operand arrays: the arguments as launched, the aggregated rows at `aggK`, the bias reshaped
  to one row, and — for the second region — the first region's result array where its write-backs left it.
-/
import proofs.«138954_j12077448036841_2_alg».proof.Proof.Gen.KernelIdeal.Frame
import proofs.«138954_j12077448036841_2_alg».proof.Proof.Layer0
import proofs.«138954_j12077448036841_2_alg».proof.Proof.Layer1
import Idealize.ShloMosaic.Lib.StableHlo.Run
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.ShloMosaic.StableHlo
open Idealize.SL.Sem
open Cert.Sage

/-- The in-degree of every node: ones summed into the edges' destinations. -/
def degK (dst : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The mean over incoming edges of the source nodes' rows of `h`, as the kernel's program prints it. -/
def aggK (h : (⟨S50000x128, .f32⟩ : BufTy).Contents (Elt Ideal)) (src dst : (⟨S800000, .i32⟩ : BufTy).Contents (Elt Ideal)) (deg : (⟨S50000, .f32⟩ : BufTy).Contents (Elt Ideal)) : (⟨S50000x128, .f32⟩ : BufTy).Contents (Elt Ideal) :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (extf .f32
        (Host.gather gather_S50000x128_S800000x1_S800000x128_1_0_n_n_0_1_1128
          (truncf .bf16 h bitsLt_bf16_f32)
          (broadcastInDim S800000x1 ![0] bcast_S800000_S800000x1_0
            (select
              (cmpi .slt src (broadcastInDim S800000 ![] bcast_S_S800000 (constantI S_ 32 0#32)))
              (addi src (broadcastInDim S800000 ![] bcast_S_S800000 (constantI S_ 32 50000#32)))
              src)))
        bitsLt_bf16_f32))
    (broadcastInDim S50000x128 ![0, 1] bcast_S50000x1_S50000x128_0_1
      (broadcastInDim S50000x1 ![0] bcast_S50000_S50000x1_0
        (maximumf deg (broadcastInDim S50000 ![] bcast_S_S50000 (constant (F := Ideal) S_ .f32 0x3F800000#32)))))

variable (m : (ℓ : Loc nD τ sig) → Buf (Elt Ideal) ℓ) (ρ : Dev nD → PrngReg)

/-! ## What the first region finds -/

theorem V1_arg0 (c : Dev nD) : V1 m ρ c main_arg0 = (m ((c : Thread nD τ).loc main_arg0)) := by
  dsimp only [V1, W1, hostOps0]; after_results_simp <;> rfl
theorem V1_arg3 (c : Dev nD) : V1 m ρ c main_arg3 = (m ((c : Thread nD τ).loc main_arg3)) := by
  dsimp only [V1, W1, hostOps0]; after_results_simp <;> rfl
theorem V1_arg4 (c : Dev nD) : V1 m ρ c main_arg4 = (m ((c : Thread nD τ).loc main_arg4)) := by
  dsimp only [V1, W1, hostOps0]; after_results_simp <;> rfl
theorem W1_arg1 (c : Dev nD) : W1 m ρ c (Proc.devRef .tc main_arg1) = (m ((c : Thread nD τ).loc main_arg1)) := by
  dsimp only [W1, hostOps0]; after_results_simp <;> rfl
theorem W1_arg2 (c : Dev nD) : W1 m ρ c (Proc.devRef .tc main_arg2) = (m ((c : Thread nD τ).loc main_arg2)) := by
  dsimp only [W1, hostOps0]; after_results_simp <;> rfl
theorem W1_arg6 (c : Dev nD) : W1 m ρ c (Proc.devRef .tc main_arg6) = (m ((c : Thread nD τ).loc main_arg6)) := by
  dsimp only [W1, hostOps0]; after_results_simp <;> rfl
theorem W1_arg7 (c : Dev nD) : W1 m ρ c (Proc.devRef .tc main_arg7) = (m ((c : Thread nD τ).loc main_arg7)) := by
  dsimp only [W1, hostOps0]; after_results_simp <;> rfl
theorem W1_arg8 (c : Dev nD) : W1 m ρ c (Proc.devRef .tc main_arg8) = (m ((c : Thread nD τ).loc main_arg8)) := by
  dsimp only [W1, hostOps0]; after_results_simp <;> rfl
/-- The in-degrees, computed before the first region and read again before the second. -/
theorem W1_v3 (c : Dev nD) : W1 m ρ c (Proc.devRef .tc main_v3) = degK (m ((c : Thread nD τ).loc main_arg2)) := by
  dsimp only [W1, hostOps0]; after_results_simp <;> rfl
theorem V1_v20 (c : Dev nD) :
    V1 m ρ c main_v20 = aggK (m ((c : Thread nD τ).loc main_arg0)) (m ((c : Thread nD τ).loc main_arg1)) (m ((c : Thread nD τ).loc main_arg2)) (degK (m ((c : Thread nD τ).loc main_arg2))) := by
  dsimp only [V1, W1, hostOps0]; after_results_simp <;> rfl
theorem V1_v21 (c : Dev nD) : V1 m ρ c main_v21 = shapeCast S1x128 (m ((c : Thread nD τ).loc main_arg5)) shapeCasts_S128_S1x128 := by
  dsimp only [V1, W1, hostOps0]; after_results_simp <;> rfl
/-- The first layer's bias as the region finds it: entry j of the [1, 128] row is entry j of the argument. -/
theorem V1_bias (c : Dev nD) :
    (fun j : Fin 128 => V1 m ρ c main_v21 (ix2 (0 : Fin 1) j)) = fun j => (m ((c : Thread nD τ).loc main_arg5)) (ix1 j) := by
  funext j
  rw [V1_v21]
  exact shapeCast_a_1a_apply _ _ 0 j

/-- The first layer's output array, as a function of the launch memory. -/
def H1 (c : Dev nD) : Arr :=
  linW (m ((c : Thread nD τ).loc main_arg0)) (aggK (m ((c : Thread nD τ).loc main_arg0)) (m ((c : Thread nD τ).loc main_arg1)) (m ((c : Thread nD τ).loc main_arg2)) (degK (m ((c : Thread nD τ).loc main_arg2))))
    (m ((c : Thread nD τ).loc main_arg3)) (m ((c : Thread nD τ).loc main_arg4)) (fun j => (m ((c : Thread nD τ).loc main_arg5)) (ix1 j))

theorem G0_eq (c : Dev nD) : Layer0.G (V1 m ρ) c = H1 m c := by
  unfold Layer0.G H1
  rw [V1_arg0, V1_arg3, V1_arg4, V1_v20, V1_bias]

/-! ## What the second region finds -/

theorem V3_v22 (c : Dev nD) : V3 m ρ c main_v22 = H1 m c := by
  have e : V3 m ρ c main_v22 = W2 m ρ c (Proc.devRef .tc main_v22) := by
    dsimp only [V3, W3, hostOps1]; after_results_simp <;> rfl
  rw [e]
  exact (W2_arr m ρ c 5).trans ((Layer0.value (V1 m ρ) c).trans (G0_eq m ρ c))
theorem V3_arg6 (c : Dev nD) : V3 m ρ c main_arg6 = (m ((c : Thread nD τ).loc main_arg6)) := by
  have e : V3 m ρ c main_arg6 = W2 m ρ c (Proc.devRef .tc main_arg6) := by
    dsimp only [V3, W3, hostOps1]; after_results_simp <;> rfl
  rw [e]
  exact (W2_of_ne m ρ c main_arg6 (by decide)).trans (W1_arg6 m ρ c)
theorem V3_arg7 (c : Dev nD) : V3 m ρ c main_arg7 = (m ((c : Thread nD τ).loc main_arg7)) := by
  have e : V3 m ρ c main_arg7 = W2 m ρ c (Proc.devRef .tc main_arg7) := by
    dsimp only [V3, W3, hostOps1]; after_results_simp <;> rfl
  rw [e]
  exact (W2_of_ne m ρ c main_arg7 (by decide)).trans (W1_arg7 m ρ c)
theorem V3_v39 (c : Dev nD) :
    V3 m ρ c main_v39 = aggK (H1 m c) (m ((c : Thread nD τ).loc main_arg1)) (m ((c : Thread nD τ).loc main_arg2)) (degK (m ((c : Thread nD τ).loc main_arg2))) := by
  have e : V3 m ρ c main_v39 = aggK (W2 m ρ c (Proc.devRef .tc main_v22)) (W2 m ρ c (Proc.devRef .tc main_arg1))
      (W2 m ρ c (Proc.devRef .tc main_arg2)) (W2 m ρ c (Proc.devRef .tc main_v3)) := by
    dsimp only [V3, W3, hostOps1]; after_results_simp <;> rfl
  rw [e, (W2_arr m ρ c 5).trans ((Layer0.value (V1 m ρ) c).trans (G0_eq m ρ c)),
    (W2_of_ne m ρ c main_arg1 (by decide)).trans (W1_arg1 m ρ c),
    (W2_of_ne m ρ c main_arg2 (by decide)).trans (W1_arg2 m ρ c),
    (W2_of_ne m ρ c main_v3 (by decide)).trans (W1_v3 m ρ c)]
theorem V3_v40 (c : Dev nD) : V3 m ρ c main_v40 = shapeCast S1x128 (m ((c : Thread nD τ).loc main_arg8)) shapeCasts_S128_S1x128 := by
  have e : V3 m ρ c main_v40 = shapeCast S1x128 (W2 m ρ c (Proc.devRef .tc main_arg8)) shapeCasts_S128_S1x128 := by
    dsimp only [V3, W3, hostOps1]; after_results_simp <;> rfl
  rw [e, (W2_of_ne m ρ c main_arg8 (by decide)).trans (W1_arg8 m ρ c)]
theorem V3_bias (c : Dev nD) :
    (fun j : Fin 128 => V3 m ρ c main_v40 (ix2 (0 : Fin 1) j)) = fun j => (m ((c : Thread nD τ).loc main_arg8)) (ix1 j) := by
  funext j
  rw [V3_v40]
  exact shapeCast_a_1a_apply _ _ 0 j

/-- The result array, as a function of the launch memory. -/
def Out (c : Dev nD) : Arr :=
  nrmW (linW (H1 m c) (aggK (H1 m c) (m ((c : Thread nD τ).loc main_arg1)) (m ((c : Thread nD τ).loc main_arg2)) (degK (m ((c : Thread nD τ).loc main_arg2))))
    (m ((c : Thread nD τ).loc main_arg6)) (m ((c : Thread nD τ).loc main_arg7)) (fun j => (m ((c : Thread nD τ).loc main_arg8)) (ix1 j)))

theorem G1_eq (c : Dev nD) : Layer1.G (V3 m ρ) c = Out m c := by
  unfold Layer1.G Out
  rw [V3_v22, V3_arg6, V3_arg7, V3_v39, V3_bias]

/-- The result array after the run. -/
theorem result_eq (c : Dev nD) : (dat1 (V3 m ρ) c).arrAt 5 cfg1.N = Out m c :=
  (Layer1.value (V3 m ρ) c).trans (G1_eq m ρ c)

end Cert.KernelIdeal.HostSide

end
-- ==== Proof.RefSide.lean ====
/-
  The reference's result, stage by stage, as the layer functions.

  The reference is plain jnp: per layer the same mean aggregation of gathered rows (kept whole as `aggR`: a gather
  and two scatter-adds, never opened), two `dot_general`s against the weight matrices, the bias broadcast over
  the rows and a `maximum` with zero; after the second layer each row is divided by max (its norm, ε).  At the
  extended reals a `dot_general` entry is the sum over the contracted axis of products and a host sum over the
  lanes is its initial value, zero, plus the sum over the 128 lanes, so a layer is `linW` and the normalisation
  `nrmW`, index by index.
-/
import proofs.«138954_j12077448036841_2_alg».proof.Proof.Gen.ReferenceIdeal.Read
import proofs.«138954_j12077448036841_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.SL.Sem
open Cert.Sage

/-- The mean over incoming edges of the source nodes' rows of `h`, as the reference prints it. -/
def aggR (h : FVec Ideal S50000x128 .f32) (x1 x2 : IVec S800000 32) : FVec Ideal S50000x128 .f32 :=
  Host.divf
    (Host.scatterAdd scatter_S50000x128_S800000x1_S800000x128_1_0_0_1 (val_main_v7 (F := Ideal)) (val_main_v8 (F := Ideal) x2)
      (Host.gather gather_S50000x128_S800000x1_S800000x128_1_0_n_n_0_1_1128 h (val_main_v5 (F := Ideal) x1)))
    (val_main_v17 (F := Ideal) x2)

/-- One layer as the reference's host operations. -/
def hostLin (h hn : FVec Ideal S50000x128 .f32) (ws wn : FVec Ideal S128x128 .f32) (b : FVec Ideal S128 .f32) : FVec Ideal S50000x128 .f32 :=
  maximumf (addf (addf (val_main_v19 (F := Ideal) h ws) (val_main_v19 (F := Ideal) hn wn)) (val_main_v23 (F := Ideal) b)) (val_main_call0_v0 (F := Ideal))

/-- The row normalisation as the reference's host operations. -/
def hostNrm (y : FVec Ideal S50000x128 .f32) : FVec Ideal S50000x128 .f32 :=
  Host.divf y (broadcastInDim S50000x128 ![0, 1] bcast_S50000x1_S50000x128_0_1
    (maximumf (Host.sqrt (broadcastInDim S50000x1 ![0] bcast_S50000_S50000x1_0
      (Host.reduceAdd (mulf y y) (val_main_cst_10 (F := Ideal)) reducesTo_S50000x128_S50000_d1 h_S_))) (val_main_v56 (F := Ideal))))

/-- The reference's last stage is the two layers and the normalisation composed. -/
theorem stage_eq (x0 : FVec Ideal S50000x128 .f32) (x1 x2 : IVec S800000 32) (x3 x4 : FVec Ideal S128x128 .f32) (x5 : FVec Ideal S128 .f32)
    (x6 x7 : FVec Ideal S128x128 .f32) (x8 : FVec Ideal S128 .f32) :
    val_main_v59 (F := Ideal) x0 x1 x2 x3 x4 x5 x6 x7 x8
      = hostNrm (hostLin (hostLin x0 (aggR x0 x1 x2) x3 x4 x5) (aggR (hostLin x0 (aggR x0 x1 x2) x3 x4 x5) x1 x2) x6 x7 x8) := rfl

/-- A layer of host operations is the layer function, index by index. -/
theorem hostLin_eq (h hn : FVec Ideal S50000x128 .f32) (ws wn : FVec Ideal S128x128 .f32) (b : FVec Ideal S128 .f32) :
    hostLin h hn ws wn b = linW h hn ws wn (fun j => b (ix1 j)) := by
  funext i
  obtain ⟨r, j, rfl⟩ : ∃ (r : Fin 50000) (j : Fin 128), i = ix2 r j := ⟨i 0, i 1, eq_ix2 i⟩
  rw [linW_ix2]
  unfold hostLin rowLin row
  show max ((val_main_v19 (F := Ideal) h ws (ix2 r j) + val_main_v19 (F := Ideal) hn wn (ix2 r j)) + val_main_v23 (F := Ideal) b (ix2 r j))
    (val_main_call0_v0 (F := Ideal) (ix2 r j)) = _
  rw [val_main_v19_apply, val_main_v19_apply, val_main_v23_apply, val_main_v22_apply, val_main_call0_v0_apply]
  have el : ∀ k : Fin 128, lidx_main_v19 (ix2 r j) k = ix2 r k := fun k => funext fun a => Fin.ext (by
    match a with | ⟨0, _⟩ => rfl | ⟨1, _⟩ => rfl)
  have er : ∀ k : Fin 128, ridx_main_v19 (ix2 r j) k = ix2 k j := fun k => funext fun a => Fin.ext (by
    match a with | ⟨0, _⟩ => rfl | ⟨1, _⟩ => rfl)
  have eb : idx_main_v22 (idx_main_v23 (ix2 r j)) = ix1 j := funext fun a => Fin.ext (by
    match a with | ⟨0, _⟩ => rfl)
  simp only [el, er, eb]
  rfl

/-- The host's row normalisation is the row function, index by index. -/
theorem hostNrm_eq (y : FVec Ideal S50000x128 .f32) : hostNrm y = nrmW y := by
  funext i
  obtain ⟨r, j, rfl⟩ : ∃ (r : Fin 50000) (j : Fin 128), i = ix2 r j := ⟨i 0, i 1, eq_ix2 i⟩
  rw [nrmW_ix2]
  unfold hostNrm rowNrm row
  generalize hS : Host.reduceAdd (mulf y y) (val_main_cst_10 (F := Ideal)) reducesTo_S50000x128_S50000_d1 h_S_ = S
  have hSr : S (ix1 r) = ∑ k : Fin 128, y (ix2 r k) * y (ix2 r k) := by
    subst hS
    simp only [Host.reduceAdd, Ideal.hostReduceAdd_def]
    rw [Ideal.hostReduceAdd_single reducesTo_S50000x128_S50000_d1 (by decide)]
    refine (congrArg (· + _) (show val_main_cst_10 (F := Ideal) (Shape.Idx.first h_S_) = 0 from Ideal.ofBits_zero_f32)).trans ((zero_add _).trans ?_)
    exact Finset.sum_congr rfl fun k _ => congrArg (fun t => y t * y t) (funext fun a => Fin.ext (by
      match a with | ⟨0, _⟩ => rfl | ⟨1, _⟩ => rfl))
  generalize hC : broadcastInDim S50000x1 ![0] bcast_S50000_S50000x1_0 S = C
  have hCr : C (ix2 r (0 : Fin 1)) = S (ix1 r) := by
    subst hC
    exact broadcastInDim_apply _ bcast_S50000_S50000x1_0 S (ix2 r (0 : Fin 1)) (ix1 r) (fun a => match a with
      | ⟨0, _⟩ => by show r.val = if (50000 : Nat) = 1 then 0 else r.val; rw [if_neg (by decide)])
  generalize hM : maximumf (Host.sqrt C) (val_main_v56 (F := Ideal)) = M
  have hMr : M (ix2 r (0 : Fin 1)) = max (Ideal.sqrt (C (ix2 r (0 : Fin 1)))) (Ideal.ofBits .f32 0x2B8CBCCC#32) := by
    subst hM
    exact congrArg₂ max rfl ((val_main_v56_apply _).trans rfl)
  generalize hB : broadcastInDim S50000x128 ![0, 1] bcast_S50000x1_S50000x128_0_1 M = B
  have hBr : B (ix2 r j) = M (ix2 r (0 : Fin 1)) := by
    subst hB
    exact broadcastInDim_apply _ bcast_S50000x1_S50000x128_0_1 M (ix2 r j) (ix2 r (0 : Fin 1)) (fun a => match a with
      | ⟨0, _⟩ => by show r.val = if (50000 : Nat) = 1 then 0 else r.val; rw [if_neg (by decide)]
      | ⟨1, _⟩ => by show 0 = if (1 : Nat) = 1 then 0 else j.val; rw [if_pos rfl])
  show Ideal.div (y (ix2 r j)) (B (ix2 r j)) = _
  rw [hBr, hMr, hCr, hSr]

end Cert.ReferenceIdeal.RefValue

end
-- ==== Proof.lean ====
/-
  Two-layer GraphSAGE with mean aggregation and a final row normalisation: the Pallas program against its jnp
  reference, at the extended reals.

  Both programs compute, for node features x [50000, 128], edge lists src / dst [800000] and per-layer weights,

      h₁  = max (x · W_self0 + A(x) · W_neigh0 + b0, 0)
      h₂  = max (h₁ · W_self1 + A(h₁) · W_neigh1 + b1, 0)
      out = h₂[r, :] / max (‖h₂[r, :]‖₂, ε)            for every row r,

  where A(h) is the mean of h's rows over each node's incoming edges (a gather at the source indices, a
  scatter-add into the destinations, a division by max (in-degree, 1)).  The kernel's program does the matrix
  products, the bias, the relu — and for the second layer the normalisation — in two pallas_calls over ten row
  tiles of 5000 rows, rounds to bf16 on the way into the products and the gather, and computes the in-degrees
  once; the reference does everything with host operations on whole arrays, and computes the in-degrees twice.
  At the extended reals a change of float format is the identity and every sum is exact, so:

  * A is the SAME composition of host operations on both sides (`agg_eq`: the kernel's carries two format changes
    that are the identity), applied to arrays proved equal — it is never opened;
  * each output row of a layer depends on the same row of its two inputs only, and is the same expression of sums
    of products on both sides (`Sage.rowLin`, `Sage.rowNrm`: the kernel's stored values in module Pay, the
    reference's stages in module RefSide), so the ten tiles written back by a pallas_call assemble the
    reference's whole-array value (modules Layer0, Layer1);
  * the zero of the relu and the ε of the normalisation are the same literals on both sides.

  No algebraic law of the extended reals is used beyond reading both sides as these sums, and the precondition
  (finite inputs) is not needed for the equality.  The idealization rewrote nothing, so `preserves` is trivial.
  The three frame claims are the generated frames (the reference's: its generated run with the result dropped).
-/
import proofs.«138954_j12077448036841_2_alg».proof.Defs
import proofs.«138954_j12077448036841_2_alg».proof.Proof.Gen.Kernel
import proofs.«138954_j12077448036841_2_alg».proof.Proof.Gen.Kernel.Skeleton
import proofs.«138954_j12077448036841_2_alg».proof.Proof.Gen.Kernel.Launch
import proofs.«138954_j12077448036841_2_alg».proof.Proof.Gen.Kernel.Points
import proofs.«138954_j12077448036841_2_alg».proof.Proof.Gen.Kernel.Frame
import proofs.«138954_j12077448036841_2_alg».proof.Proof.Gen.KernelIdeal
import proofs.«138954_j12077448036841_2_alg».proof.Proof.Gen.KernelIdeal.Skeleton
import proofs.«138954_j12077448036841_2_alg».proof.Proof.Gen.KernelIdeal.Launch
import proofs.«138954_j12077448036841_2_alg».proof.Proof.Gen.KernelIdeal.Points
import proofs.«138954_j12077448036841_2_alg».proof.Proof.Gen.KernelIdeal.Frame
import proofs.«138954_j12077448036841_2_alg».proof.Proof.Gen.ReferenceIdeal
import proofs.«138954_j12077448036841_2_alg».proof.Proof.Gen.Pre_finite_inputs
import proofs.«138954_j12077448036841_2_alg».proof.Proof.Gen.ReferenceIdeal.Run
import proofs.«138954_j12077448036841_2_alg».proof.Proof.Gen.ReferenceIdeal.Read
import proofs.«138954_j12077448036841_2_alg».proof.Proof.Named
import proofs.«138954_j12077448036841_2_alg».proof.Proof.HostSide
import proofs.«138954_j12077448036841_2_alg».proof.Proof.RefSide
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Sage

/-- The mean aggregation is one function on both sides: the kernel's program prints the reference's operations
    with a rounding to bf16 before the gather and a widening after it, both the identity at the extended reals, and
    takes the in-degrees it computed once where the reference recomputes them. -/
theorem agg_eq (h : FVec Ideal Cert.ReferenceIdeal.S50000x128 .f32) (src dst : IVec Cert.ReferenceIdeal.S800000 32) :
    Cert.KernelIdeal.HostSide.aggK h src dst (Cert.KernelIdeal.HostSide.degK dst) = Cert.ReferenceIdeal.RefValue.aggR h src dst := rfl

/-- The reference's last stage is the kernel's result function of the same arguments. -/
theorem stage_eq (x0 : FVec Ideal Cert.ReferenceIdeal.S50000x128 .f32) (x1 x2 : IVec Cert.ReferenceIdeal.S800000 32)
    (x3 x4 : FVec Ideal Cert.ReferenceIdeal.S128x128 .f32) (x5 : FVec Ideal Cert.ReferenceIdeal.S128 .f32)
    (x6 x7 : FVec Ideal Cert.ReferenceIdeal.S128x128 .f32) (x8 : FVec Ideal Cert.ReferenceIdeal.S128 .f32) :
    Cert.ReferenceIdeal.Read.val_main_v59 (F := Ideal) x0 x1 x2 x3 x4 x5 x6 x7 x8
      = nrmW (linW (linW x0 (Cert.KernelIdeal.HostSide.aggK x0 x1 x2 (Cert.KernelIdeal.HostSide.degK x2)) x3 x4 (fun j => x5 (ix1 j)))
          (Cert.KernelIdeal.HostSide.aggK (linW x0 (Cert.KernelIdeal.HostSide.aggK x0 x1 x2 (Cert.KernelIdeal.HostSide.degK x2)) x3 x4 (fun j => x5 (ix1 j)))
            x1 x2 (Cert.KernelIdeal.HostSide.degK x2))
          x6 x7 (fun j => x8 (ix1 j))) := by
  rw [Cert.ReferenceIdeal.RefValue.stage_eq, Cert.ReferenceIdeal.RefValue.hostNrm_eq, Cert.ReferenceIdeal.RefValue.hostLin_eq,
    Cert.ReferenceIdeal.RefValue.hostLin_eq, agg_eq, agg_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the nine arguments both programs run, and both result arrays end at the two layers and
    the normalisation of those arguments. -/
theorem algebraic : Cert.algebraic_KernelIdeal_ReferenceIdeal := by
  intro m ρ m' ρ' _ hagree
  refine ⟨fun c => Cert.KernelIdeal.HostSide.Out m c, ?_, ?_⟩
  · exact (θ_run Cert.KernelIdeal.defs _ _).mono
      (fun r h c => ⟨(h c).1.trans (Cert.KernelIdeal.HostSide.result_eq m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, stage_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
